-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S128x256 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S256x128 : Shape := ⟨2, ![256, 128]⟩
abbrev S128x128 : Shape := ⟨2, ![128, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 59
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1000x128, .f32⟩
  | .local _ .vmem, ⟨16, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x128.size a ≤ S50000x128.size a
  hwx0_13 : ∀ i : grid0.Coords, EltTy.bits .f32 = 32 ∨ (Rect.block (s := S50000x128) S1000x128.size (cc0_transform_13 i) (hinb0_13 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v39) S1000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S256x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S256x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S_, .f32⟩
  | .hbm, ⟨98, _⟩ => ⟨S50000x1, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.GruRow.lean ====
/-
  One row of the gated update followed by a layer normalisation, on the extended reals.

  A node's 128 features `x` and its aggregated messages `m` (also 128 long) go through three affine maps of the
  256-long concatenation `[x, m]`. Each map is written here as two 128-long sums, one against the weight block
  that multiplies `x` and one against the block that multiplies `m`, plus a bias: `gate`. The update gate and the
  reset gate are the logistic function of two such maps; the candidate is the hyperbolic tangent of the third,
  taken of `[r · x, m]`; the new features are `(1 − z) · x + z · candidate` (`blend`). The row is then centred by
  its mean, scaled by the reciprocal square root of its variance plus a small constant, multiplied by `g` and
  shifted by `β` (`lnorm`).

  `sum_256_split` is the one law that joins the two spellings of an affine map of a concatenation: a sum over 256
  indices is the sum over the first 128 plus the sum over the last 128. It uses only that addition of extended
  reals is commutative and associative, so no entry has to be finite.
-/
import Idealize.ShloMosaic.PureOps.Ideal
import Mathlib.Algebra.BigOperators.Fin

noncomputable section

namespace Cert.GruRow

open Idealize.ShloMosaic

/-- One row of 128 features. -/
abbrev Row := Fin 128 → EReal
/-- A 128 × 128 weight block, `w k c`: input feature `k`, output feature `c`. -/
abbrev Mat := Fin 128 → Fin 128 → EReal

/-- The float word of `1.0`, as the extended real it denotes. -/
def one32 : EReal := Ideal.ofBits .f32 0x3F800000#32
/-- The float word of `128.0`. -/
def n128 : EReal := Ideal.ofBits .f32 0x43000000#32
/-- The float word of the normalisation's small constant. -/
def eps : EReal := Ideal.ofBits .f32 0x3727C5AC#32

/-- A row times a weight block, at output feature `c`. -/
def dot (a : Row) (w : Mat) (c : Fin 128) : EReal := ∑ k : Fin 128, a k * w k c

/-- An affine map of `[x, m]`: `x · wx + m · wm + b`. -/
def gate (xr mr : Row) (wx wm : Mat) (b : Row) : Row := fun c => (dot xr wx c + dot mr wm c) + b c

/-- `(1 − σ(zl)) · x + σ(zl) · tanh(hl)`. -/
def blend (zl hl xr : Row) : Row := fun c =>
  (one32 - Ideal.logistic (zl c)) * xr c + Ideal.logistic (zl c) * Ideal.tanh (hl c)

/-- The mean of a row: its sum divided by 128. -/
def mean (y : Row) : EReal := Ideal.div (∑ k : Fin 128, y k) n128

/-- Centre by the mean, scale by `(variance + eps)^(-1/2)`, multiply by `g`, add `β`. -/
def lnorm (y g β : Row) : Row := fun c =>
  (y c - mean y) * Ideal.rsqrt (mean (fun k => (y k - mean y) * (y k - mean y)) + eps) * g c + β c

/-- The whole row: the gated update of `x` by `m`, normalised. -/
def rowOut (xr mr : Row) (wzx wzm wrx wrm whx whm : Mat) (bz br bh g β : Row) : Row :=
  lnorm (blend (gate xr mr wzx wzm bz)
    (gate (fun k => Ideal.logistic (gate xr mr wrx wrm br k) * xr k) mr whx whm bh) xr) g β

/-- Index `k` of the first half of a 256-long axis. -/
def lo (k : Fin 128) : Fin 256 := ⟨k.val, by omega⟩
/-- Index `k` of the second half of a 256-long axis. -/
def hi (k : Fin 128) : Fin 256 := ⟨128 + k.val, by omega⟩

/-- A sum over 256 indices is the sum over its first 128 plus the sum over its last 128. -/
theorem sum_256_split (f : Fin 256 → EReal) :
    ∑ k : Fin 256, f k = (∑ k : Fin 128, f (lo k)) + ∑ k : Fin 128, f (hi k) :=
  Fin.sum_univ_add (a := 128) (b := 128) f

end Cert.GruRow

end
-- ==== Proof.GruArray.lean ====
/-
  The result array as one function of the argument arrays.

  Row `r` of the result is `GruRow.rowOut` of row `r` of the features `X` and row `r` of the aggregated messages
  `M`. Each weight matrix `W` is 128 × 256, used transposed: the block that multiplies the features is
  `(k, c) ↦ W (c, k)` and the block that multiplies the messages is `(k, c) ↦ W (c, 128 + k)`. The biases and
  the normalisation's scale and shift are vectors of 128 entries.
-/
import Idealize.ShloMosaic.Lib.ValueIdx
import proofs.«165846_j42030549959140_1_alg».proof.Proof.GruRow

noncomputable section

namespace Cert.GruRow

open Idealize.ShloMosaic Idealize.ShloMosaic.ValueIdx

/-- A 50000 × 128 array of extended reals. -/
abbrev Nodes := (⟨2, ![50000, 128]⟩ : Shape).Idx → EReal
/-- A 128 × 256 weight matrix. -/
abbrev Weights := (⟨2, ![128, 256]⟩ : Shape).Idx → EReal
/-- A vector of 128 entries. -/
abbrev Feat := (⟨1, ![128]⟩ : Shape).Idx → EReal

/-- The result at row `r`, column `q`. -/
def gruAt (X M : Nodes) (Wz : Weights) (bz : Feat) (Wr : Weights) (br : Feat) (Wh : Weights) (bh g β : Feat)
    (r : Fin 50000) (q : Fin 128) : EReal :=
  rowOut (fun k => X (ix2 r k)) (fun k => M (ix2 r k))
    (fun k c => Wz (ix2 c (lo k))) (fun k c => Wz (ix2 c (hi k)))
    (fun k c => Wr (ix2 c (lo k))) (fun k c => Wr (ix2 c (hi k)))
    (fun k c => Wh (ix2 c (lo k))) (fun k c => Wh (ix2 c (hi k)))
    (fun c => bz (ix1 c)) (fun c => br (ix1 c)) (fun c => bh (ix1 c)) (fun c => g (ix1 c)) (fun c => β (ix1 c)) q

/-- The result array. -/
def gruArray (X M : Nodes) (Wz : Weights) (bz : Feat) (Wr : Weights) (br : Feat) (Wh : Weights) (bh g β : Feat) : Nodes :=
  fun i => gruAt X M Wz bz Wr br Wh bh g β (i 0) (i 1)

theorem gruArray_ix2 (X M : Nodes) (Wz : Weights) (bz : Feat) (Wr : Weights) (br : Feat) (Wh : Weights) (bh g β : Feat)
    (r : Fin 50000) (q : Fin 128) :
    gruArray X M Wz bz Wr br Wh bh g β (ix2 r q) = gruAt X M Wz bz Wr br Wh bh g β r q := rfl

end Cert.GruRow

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.LibColumnForms.lean ====
/-
  Reading a block of rows at `(p, c)`: the keepdims column forms, a lane sum, and a plain matrix product.

  * a vector `[a]` cast to a column `[a, 1]` reads at `(p, 0)` the vector at `p`;
  * a column `[a, 1]` broadcast to `[a, b]` reads at `(p, c)` the column at `(p, 0)`;
  * the sum of an `[a, b]` array over its second axis, at `p`, is the sum over `k` of the array at `(p, k)`;
  * a matrix product `[a, K] × [K, b]` into a zero accumulator, at `(p, c)`, is the sum over `k` of
    `lhs (p, k) · rhs (k, c)`, for dimension numbers that contract the left operand's second axis with the right
    operand's first.
  All at the exact instance, where every float is an extended real.
-/
import Idealize.ShloMosaic.Lib.ValueIdx
import Idealize.ShloMosaic.Lib.Pipeline.Value
import Idealize.ShloMosaic.PureOps.Ideal.Laws
import proofs.«165846_j42030549959140_1_alg».proof.Proof.LibRowBlockDot

noncomputable section

namespace Idealize.ShloMosaic.ColumnForms

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with coordinate `k` put back on the second axis is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum of an `[a, b]` array over its second axis, read at `p`: the sum over `k` of the array at `(p, k)`. -/
theorem laneSum_apply {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- The same, with the accumulator's side condition spelt through the sum's neutral word. -/
theorem laneSum_apply' {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- A plain matrix product into the zero accumulator, read at `(p, c)`. -/
theorem matmul_zero_apply {a K b : ℕ} {φ₁ φ₂ : FTy}
    (d : DotDims (⟨2, ![a, K]⟩ : Shape) (⟨2, ![K, b]⟩ : Shape) (⟨2, ![a, b]⟩ : Shape)) (hd : RowBlockDot.PlainDot d)
    (prec : Option ContractPrecision) (lhs : FVec Ideal ⟨2, ![a, K]⟩ φ₁) (rhs : FVec Ideal ⟨2, ![K, b]⟩ φ₂) (p : Fin a) (c : Fin b) :
    matmul d prec lhs rhs (constant ⟨2, ![a, b]⟩ .f32 0x00000000#32) (ix2 p c) = ∑ k : Fin K, lhs (ix2 p k) * rhs (ix2 k c) :=
  (Ideal.matmul_constant_zero_apply d prec lhs rhs (ix2 p c)).trans (RowBlockDot.sum_contr_eq d hd lhs rhs (ix2 p c))

end Idealize.ShloMosaic.ColumnForms

end
-- ==== Proof.KernelRow.lean ====
/-
  What the kernel's body computes for one row of a block.

  The body's arithmetic (the generated payload terms) is read at row `p`, column `q` of a block of 1000 rows:
  every matrix product is a sum over 128 indices of that row times a column of a weight block, every lane sum a
  sum over the row, every broadcast a read of the one row or the one column it repeats. The result is
  `GruRow.rowOut` of row `p` of the two row blocks, the six weight blocks and the five vectors (`point_eq`): the
  body treats the rows of a block independently.
-/
import proofs.«165846_j42030549959140_1_alg».proof.Proof.Gen.KernelIdeal.Skeleton
import proofs.«165846_j42030549959140_1_alg».proof.Proof.GruArray
import proofs.«165846_j42030549959140_1_alg».proof.Proof.LibColumnForms
import Idealize.ShloMosaic.Lib.ValueLayout

noncomputable section

namespace Cert.KernelIdeal.RowValue

open Cert.KernelIdeal Cert.KernelIdeal.Gen Idealize.ShloMosaic Idealize.ShloMosaic.ValueIdx
open Idealize.ShloMosaic.ColumnForms Cert.GruRow

/-- The kernel's matrix products contract the left operand's second axis with the right operand's first. -/
theorem plain : RowBlockDot.PlainDot (M := 1000) (K := 128) (N := 128) dot_S1000x128_S128x128_S1000x128_1_0_0_1_n_n where
  hr := rfl
  hs := rfl
  l0 := fun j q => by
    unfold DotDims.lhsIdx
    rw [dif_neg (show ¬(0 : Fin S1000x128.rank) ∈ dot_S1000x128_S128x128_S1000x128_1_0_0_1_n_n.lhsBatch by decide),
      dif_pos (show (0 : Fin S1000x128.rank) ∈ dot_S1000x128_S128x128_S1000x128_1_0_0_1_n_n.lhsNonContracting by decide)]
    rfl
  l1 := fun j q => dot_S1000x128_S128x128_S1000x128_1_0_0_1_n_n.lhsIdx_val_of_single rfl j q
  r0 := fun j q => dot_S1000x128_S128x128_S1000x128_1_0_0_1_n_n.rhsIdx_val_of_single rfl j q
  r1 := fun j q => by
    unfold DotDims.rhsIdx
    rw [dif_neg (show ¬(1 : Fin S128x128.rank) ∈ dot_S1000x128_S128x128_S1000x128_1_0_0_1_n_n.rhsBatch by decide),
      dif_pos (show (1 : Fin S128x128.rank) ∈ dot_S1000x128_S128x128_S1000x128_1_0_0_1_n_n.rhsNonContracting by decide)]
    rfl

/-- A block of rows times a weight block, into the zero accumulator, at `(p, c)`. -/
theorem mm (lhs : FVec Ideal S1000x128 .bf16) (rhs : FVec Ideal S128x128 .bf16) (p : Fin 1000) (c : Fin 128) :
    matmul dot_S1000x128_S128x128_S1000x128_1_0_0_1_n_n none lhs rhs (constant S1000x128 .f32 0x00000000#32) (ix2 p c)
      = ∑ k : Fin 128, lhs (ix2 p k) * rhs (ix2 k c) :=
  matmul_zero_apply _ plain none lhs rhs p c

theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl
theorem rsqrt_apply {s : Shape} (x : FVec Ideal s .f32) (i : s.Idx) : rsqrt x i = Ideal.rsqrt (x i) := rfl

/-- The rounding of the messages block to the matrix unit's input format is the identity on extended reals. -/
theorem pay2_apply (x1 : Vec Ideal S1000x128 .f32) (i : S1000x128.Idx) : k0_pay2 x1 i = x1 i := by
  unfold k0_pay2
  simp only [shapeCast_self]
  rfl

theorem pay3_apply (x6 : Vec Ideal S128x128 .f32) (i : S128x128.Idx) : k0_pay3 x6 i = x6 i := by
  unfold k0_pay3
  simp only [shapeCast_self]
  rfl

theorem pay4_apply (x7 : Vec Ideal S128x128 .f32) (i : S128x128.Idx) : k0_pay4 x7 i = x7 i := by
  unfold k0_pay4
  simp only [shapeCast_self]
  rfl

theorem pay7_apply (x9 : Vec Ideal S1x128 .f32) (i : S1x128.Idx) : k0_pay7 x9 i = x9 i := by
  unfold k0_pay7
  simp only [shapeCast_self]

/-- The update gate's affine map, at row `p`, column `c` of the block. -/
theorem pay5_apply (x0 x1 : Vec Ideal S1000x128 .f32) (x2 x3 : Vec Ideal S128x128 .f32) (x8 : Vec Ideal S1x128 .f32)
    (p : Fin 1000) (c : Fin 128) :
    k0_pay5 x0 x1 x2 x3 x8 (ix2 p c)
      = gate (fun k => x0 (ix2 p k)) (fun k => x1 (ix2 p k)) (fun k c => x2 (ix2 k c)) (fun k c => x3 (ix2 k c))
          (fun c => x8 (ix2 (0 : Fin 1) c)) c := by
  unfold k0_pay5 k0_pay1 k0_pay2
  simp only [shapeCast_self, addf_apply, mm, broadcastTo_1b_ab_apply, truncf_apply]
  rfl

/-- The reset gate's two matrix products (its bias is added later), at row `p`, column `c` of the block. -/
theorem pay6_apply (x0 x1 : Vec Ideal S1000x128 .f32) (x4 x5 : Vec Ideal S128x128 .f32) (p : Fin 1000) (c : Fin 128) :
    k0_pay6 x0 x1 x4 x5 (ix2 p c)
      = dot (fun k => x0 (ix2 p k)) (fun k c => x4 (ix2 k c)) c + dot (fun k => x1 (ix2 p k)) (fun k c => x5 (ix2 k c)) c := by
  unfold k0_pay6 k0_pay1 k0_pay2
  simp only [shapeCast_self, addf_apply, mm, truncf_apply]
  rfl

set_option backward.isDefEq.respectTransparency.types false in
/-- The rest of the body, from the two gates' affine maps on: reset gate, candidate, blend and normalisation. -/
theorem pay8_apply (v0 : Vec Ideal S1000x128 .f32) (v4 : FVec Ideal S1000x128 .bf16) (v19 v22 : FVec Ideal S128x128 .bf16)
    (v29 v32 : FVec Ideal S1000x128 .f32) (v34 : FVec Ideal S1x128 .f32) (v44 v70 v74 : Vec Ideal S1x128 .f32)
    (p : Fin 1000) (c : Fin 128) :
    k0_pay8 v0 v4 v19 v22 v29 v32 v34 v44 v70 v74 (ix2 p c)
      = lnorm (blend (fun k => v29 (ix2 p k))
          (gate (fun j => Ideal.logistic (v32 (ix2 p j) + v34 (ix2 (0 : Fin 1) j)) * v0 (ix2 p j)) (fun j => v4 (ix2 p j))
            (fun j k => v19 (ix2 j k)) (fun j k => v22 (ix2 j k)) (fun k => v44 (ix2 (0 : Fin 1) k)))
          (fun k => v0 (ix2 p k)))
        (fun k => v70 (ix2 (0 : Fin 1) k)) (fun k => v74 (ix2 (0 : Fin 1) k)) c := by
  unfold k0_pay8
  simp only [shapeCast_self, addf_apply, mulf_apply, subf_apply, divf_apply, broadcast_apply, truncf_apply, logistic_apply,
    tanh_apply, rsqrt_apply, mm, broadcastTo_1b_ab_apply, broadcastTo_a1_ab_apply, shapeCast_a_a1_apply]
  repeat (rw [laneSum_apply]
          simp only [shapeCast_self, addf_apply, mulf_apply, subf_apply, divf_apply, broadcast_apply, truncf_apply,
            logistic_apply, tanh_apply, rsqrt_apply, mm, broadcastTo_1b_ab_apply, broadcastTo_a1_ab_apply, shapeCast_a_a1_apply])
  rfl

/-- ONE POINT of the body's result: at row `p`, column `q` of a block whose row `p` is row `r` of the arrays, it is the
    result array's entry `(r, q)`. The hypotheses say which array entries the blocks hold. -/
theorem point_eq (x0 x1 : Vec Ideal S1000x128 .f32) (x2 x3 x4 x5 x6 x7 : Vec Ideal S128x128 .f32)
    (x8 x9 x10 x11 x12 : Vec Ideal S1x128 .f32)
    (X M : Nodes) (Wz : Weights) (bz : Feat) (Wr : Weights) (br : Feat) (Wh : Weights) (bh g β : Feat)
    (p : Fin 1000) (q : Fin 128) (r : Fin 50000)
    (h0 : ∀ k : Fin 128, x0 (ix2 p k) = X (ix2 r k)) (h1 : ∀ k : Fin 128, x1 (ix2 p k) = M (ix2 r k))
    (h2 : ∀ k c : Fin 128, x2 (ix2 k c) = Wz (ix2 c (lo k))) (h3 : ∀ k c : Fin 128, x3 (ix2 k c) = Wz (ix2 c (hi k)))
    (h4 : ∀ k c : Fin 128, x4 (ix2 k c) = Wr (ix2 c (lo k))) (h5 : ∀ k c : Fin 128, x5 (ix2 k c) = Wr (ix2 c (hi k)))
    (h6 : ∀ k c : Fin 128, x6 (ix2 k c) = Wh (ix2 c (lo k))) (h7 : ∀ k c : Fin 128, x7 (ix2 k c) = Wh (ix2 c (hi k)))
    (h8 : ∀ c : Fin 128, x8 (ix2 (0 : Fin 1) c) = bz (ix1 c)) (h9 : ∀ c : Fin 128, x9 (ix2 (0 : Fin 1) c) = br (ix1 c))
    (h10 : ∀ c : Fin 128, x10 (ix2 (0 : Fin 1) c) = bh (ix1 c)) (h11 : ∀ c : Fin 128, x11 (ix2 (0 : Fin 1) c) = g (ix1 c))
    (h12 : ∀ c : Fin 128, x12 (ix2 (0 : Fin 1) c) = β (ix1 c)) :
    k0_pay8 x0 (k0_pay2 x1) (k0_pay3 x6) (k0_pay4 x7) (k0_pay5 x0 x1 x2 x3 x8) (k0_pay6 x0 x1 x4 x5) (k0_pay7 x9) x10 x11 x12
        (ix2 p q)
      = gruAt X M Wz bz Wr br Wh bh g β r q := by
  rw [pay8_apply]
  simp only [pay5_apply, pay6_apply, pay7_apply, pay2_apply, pay3_apply, pay4_apply, h0, h1, h2, h3, h4, h5, h6, h7, h8, h9,
    h10, h11, h12]
  rfl

/-- `point_eq` at any index `y` of the block, for a block whose row `y 0` is row `r` of the arrays. -/
theorem point_at (x0 x1 : Vec Ideal S1000x128 .f32) (x2 x3 x4 x5 x6 x7 : Vec Ideal S128x128 .f32)
    (x8 x9 x10 x11 x12 : Vec Ideal S1x128 .f32)
    (X M : Nodes) (Wz : Weights) (bz : Feat) (Wr : Weights) (br : Feat) (Wh : Weights) (bh g β : Feat)
    (y : S1000x128.Idx) (r : Fin 50000)
    (h0 : ∀ k : Fin 128, x0 (ix2 (y 0) k) = X (ix2 r k)) (h1 : ∀ k : Fin 128, x1 (ix2 (y 0) k) = M (ix2 r k))
    (h2 : ∀ k c : Fin 128, x2 (ix2 k c) = Wz (ix2 c (lo k))) (h3 : ∀ k c : Fin 128, x3 (ix2 k c) = Wz (ix2 c (hi k)))
    (h4 : ∀ k c : Fin 128, x4 (ix2 k c) = Wr (ix2 c (lo k))) (h5 : ∀ k c : Fin 128, x5 (ix2 k c) = Wr (ix2 c (hi k)))
    (h6 : ∀ k c : Fin 128, x6 (ix2 k c) = Wh (ix2 c (lo k))) (h7 : ∀ k c : Fin 128, x7 (ix2 k c) = Wh (ix2 c (hi k)))
    (h8 : ∀ c : Fin 128, x8 (ix2 (0 : Fin 1) c) = bz (ix1 c)) (h9 : ∀ c : Fin 128, x9 (ix2 (0 : Fin 1) c) = br (ix1 c))
    (h10 : ∀ c : Fin 128, x10 (ix2 (0 : Fin 1) c) = bh (ix1 c)) (h11 : ∀ c : Fin 128, x11 (ix2 (0 : Fin 1) c) = g (ix1 c))
    (h12 : ∀ c : Fin 128, x12 (ix2 (0 : Fin 1) c) = β (ix1 c)) :
    k0_pay8 x0 (k0_pay2 x1) (k0_pay3 x6) (k0_pay4 x7) (k0_pay5 x0 x1 x2 x3 x8) (k0_pay6 x0 x1 x4 x5) (k0_pay7 x9) x10 x11 x12 y
      = gruArray X M Wz bz Wr br Wh bh g β (ix2 r (y 1)) := by
  obtain ⟨p, q, rfl⟩ : ∃ (p : Fin 1000) (q : Fin 128), y = ix2 p q := ⟨y 0, y 1, eq_ix2 y⟩
  exact point_eq x0 x1 x2 x3 x4 x5 x6 x7 x8 x9 x10 x11 x12 X M Wz bz Wr br Wh bh g β p q r h0 h1 h2 h3 h4 h5 h6 h7 h8 h9 h10 h11 h12

end Cert.KernelIdeal.RowValue

end
-- ==== Proof.KernelHost.lean ====
/-
  What the arrays hold when the kernel is launched.

  Before the launch the host transposes each 128 × 256 weight matrix and cuts the transpose into its first and
  last 128 rows, so the block that multiplies the features holds `W (c, k)` at `(k, c)` and the block that
  multiplies the messages holds `W (c, 128 + k)` there; it recasts each vector of 128 entries as one row; and it
  aggregates the messages: a gather of the source rows, their weighting, a scatter-add by target, and a division by
  the clipped in-degree. The aggregation is the same chain of host operations the reference applies, and is carried
  as that one function of the features, the edge list and the edge weights: nothing here looks inside it.
-/
import proofs.«165846_j42030549959140_1_alg».proof.Proof.Gen.KernelIdeal.Frame
import proofs.«165846_j42030549959140_1_alg».proof.Proof.Gen.ReferenceIdeal.Read
import proofs.«165846_j42030549959140_1_alg».proof.Proof.GruArray
import Idealize.ShloMosaic.Lib.StableHlo.Run
import Idealize.ShloMosaic.Lib.ValueLayout

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx Cert.GruRow

variable {F : FTy → Type} [FloatOps F]
variable (m : (ℓ : Loc nD τ sig) → Buf (Elt F) ℓ)

/-- The update gate's feature block: the first 128 rows of the transposed weights. -/
theorem V_v28 (c : Dev nD) : V m c main_v28 = extractStridedSlice S128x128 ![0, 0] (transpose S256x128 [1, 0] (m ((c : Thread nD τ).loc main_arg3)) transposes_S128x256_S256x128_1_0) slices_S256x128_S128x128_0_0 := by
  dsimp only [V]
  simp only [hostOps0, hostOps0_1, hostOps0_2, List.flatten_cons, List.flatten_nil, List.append_nil, List.cons_append, List.nil_append]
  after_results_simp

/-- The update gate's message block: the last 128 rows of the transposed weights. -/
theorem V_v29 (c : Dev nD) : V m c main_v29 = extractStridedSlice S128x128 ![128, 0] (transpose S256x128 [1, 0] (m ((c : Thread nD τ).loc main_arg3)) transposes_S128x256_S256x128_1_0) slices_S256x128_S128x128_128_0 := by
  dsimp only [V]
  simp only [hostOps0, hostOps0_1, hostOps0_2, List.flatten_cons, List.flatten_nil, List.append_nil, List.cons_append, List.nil_append]
  after_results_simp

/-- The reset gate's feature block. -/
theorem V_v30 (c : Dev nD) : V m c main_v30 = extractStridedSlice S128x128 ![0, 0] (transpose S256x128 [1, 0] (m ((c : Thread nD τ).loc main_arg5)) transposes_S128x256_S256x128_1_0) slices_S256x128_S128x128_0_0 := by
  dsimp only [V]
  simp only [hostOps0, hostOps0_1, hostOps0_2, List.flatten_cons, List.flatten_nil, List.append_nil, List.cons_append, List.nil_append]
  after_results_simp

/-- The reset gate's message block. -/
theorem V_v31 (c : Dev nD) : V m c main_v31 = extractStridedSlice S128x128 ![128, 0] (transpose S256x128 [1, 0] (m ((c : Thread nD τ).loc main_arg5)) transposes_S128x256_S256x128_1_0) slices_S256x128_S128x128_128_0 := by
  dsimp only [V]
  simp only [hostOps0, hostOps0_1, hostOps0_2, List.flatten_cons, List.flatten_nil, List.append_nil, List.cons_append, List.nil_append]
  after_results_simp

/-- The candidate's feature block. -/
theorem V_v32 (c : Dev nD) : V m c main_v32 = extractStridedSlice S128x128 ![0, 0] (transpose S256x128 [1, 0] (m ((c : Thread nD τ).loc main_arg7)) transposes_S128x256_S256x128_1_0) slices_S256x128_S128x128_0_0 := by
  dsimp only [V]
  simp only [hostOps0, hostOps0_1, hostOps0_2, List.flatten_cons, List.flatten_nil, List.append_nil, List.cons_append, List.nil_append]
  after_results_simp

/-- The candidate's message block. -/
theorem V_v33 (c : Dev nD) : V m c main_v33 = extractStridedSlice S128x128 ![128, 0] (transpose S256x128 [1, 0] (m ((c : Thread nD τ).loc main_arg7)) transposes_S128x256_S256x128_1_0) slices_S256x128_S128x128_128_0 := by
  dsimp only [V]
  simp only [hostOps0, hostOps0_1, hostOps0_2, List.flatten_cons, List.flatten_nil, List.append_nil, List.cons_append, List.nil_append]
  after_results_simp

/-- The update gate's bias as one row. -/
theorem V_v34 (c : Dev nD) : V m c main_v34 = shapeCast S1x128 (m ((c : Thread nD τ).loc main_arg4)) shapeCasts_S128_S1x128 := by
  dsimp only [V]
  simp only [hostOps0, hostOps0_1, hostOps0_2, List.flatten_cons, List.flatten_nil, List.append_nil, List.cons_append, List.nil_append]
  after_results_simp
  rfl

/-- The reset gate's bias as one row. -/
theorem V_v35 (c : Dev nD) : V m c main_v35 = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results_simp
  rfl

/-- The candidate's bias as one row. -/
theorem V_v36 (c : Dev nD) : V m c main_v36 = shapeCast S1x128 (m ((c : Thread nD τ).loc main_arg8)) shapeCasts_S128_S1x128 := by
  dsimp only [V]
  simp only [hostOps0, hostOps0_1, hostOps0_2, List.flatten_cons, List.flatten_nil, List.append_nil, List.cons_append, List.nil_append]
  after_results_simp
  rfl

/-- The normalisation's scale as one row. -/
theorem V_v37 (c : Dev nD) : V m c main_v37 = shapeCast S1x128 (m ((c : Thread nD τ).loc main_arg9)) shapeCasts_S128_S1x128 := by
  dsimp only [V]
  simp only [hostOps0, hostOps0_1, hostOps0_2, List.flatten_cons, List.flatten_nil, List.append_nil, List.cons_append, List.nil_append]
  after_results_simp
  rfl

/-- The normalisation's shift as one row. -/
theorem V_v38 (c : Dev nD) : V m c main_v38 = shapeCast S1x128 (m ((c : Thread nD τ).loc main_arg10)) shapeCasts_S128_S1x128 := by
  dsimp only [V]
  simp only [hostOps0, hostOps0_1, hostOps0_2, List.flatten_cons, List.flatten_nil, List.append_nil, List.cons_append, List.nil_append]
  after_results_simp
  rfl

/-- The aggregated messages the kernel is launched on are the reference's aggregation of the same arguments: the two
    programs apply the same host operations, in the same order, to the features, the edge list and the edge weights. -/
theorem V_v24 (c : Dev nD) : V m c main_v24
    = Cert.ReferenceIdeal.Read.val_main_v24 (F := F) (m ((c : Thread nD τ).loc main_arg0)) (m ((c : Thread nD τ).loc main_arg1))
        (m ((c : Thread nD τ).loc main_arg2)) := by
  dsimp only [V]
  simp only [hostOps0, hostOps0_1, hostOps0_2, List.flatten_cons, List.flatten_nil, List.append_nil, List.cons_append, List.nil_append]
  after_results_simp
  simp only [Cert.ReferenceIdeal.Read.val_main_v24, Cert.ReferenceIdeal.Read.val_main_v23, Cert.ReferenceIdeal.Read.val_main_v22, Cert.ReferenceIdeal.Read.val_main_v21, Cert.ReferenceIdeal.Read.val_main_call0_v1, Cert.ReferenceIdeal.Read.val_main_call0_v0, Cert.ReferenceIdeal.Read.val_main_cst_3, Cert.ReferenceIdeal.Read.val_main_v20, Cert.ReferenceIdeal.Read.val_main_v19, Cert.ReferenceIdeal.Read.val_main_v18, Cert.ReferenceIdeal.Read.val_main_cst_2, Cert.ReferenceIdeal.Read.val_main_v17, Cert.ReferenceIdeal.Read.val_main_cst_1, Cert.ReferenceIdeal.Read.val_main_v16, Cert.ReferenceIdeal.Read.val_main_v15, Cert.ReferenceIdeal.Read.val_main_v14, Cert.ReferenceIdeal.Read.val_main_cst, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v3, Cert.ReferenceIdeal.Read.val_main_v2, Cert.ReferenceIdeal.Read.val_main_v1, Cert.ReferenceIdeal.Read.val_main_v0]
  rfl

/-- The first 128 rows of a transposed 128 × 256 matrix: `(k, c) ↦ W (c, k)`. -/
theorem slice_lo_apply (W : (⟨S128x256, .f32⟩ : BufTy).Contents (Elt F)) (k c : Fin 128) :
    extractStridedSlice S128x128 ![0, 0] (transpose S256x128 [1, 0] W transposes_S128x256_S256x128_1_0) slices_S256x128_S128x128_0_0 (ix2 k c)
      = W (ix2 c (lo k)) := by
  rw [extractStridedSlice_apply ![0, 0] _ slices_S256x128_S128x128_0_0 (ix2 k c) (ix2 (lo k) c) (fun a => match a with
    | ⟨0, _⟩ => by show k.val = 0 + k.val; omega
    | ⟨1, _⟩ => by show c.val = 0 + c.val; omega)]
  exact transpose_apply [1, 0] W transposes_S128x256_S256x128_1_0 (ix2 (lo k) c) (ix2 c (lo k)) (fun b => match b with
    | ⟨0, _⟩ => rfl
    | ⟨1, _⟩ => rfl)

/-- The last 128 rows of a transposed 128 × 256 matrix: `(k, c) ↦ W (c, 128 + k)`. -/
theorem slice_hi_apply (W : (⟨S128x256, .f32⟩ : BufTy).Contents (Elt F)) (k c : Fin 128) :
    extractStridedSlice S128x128 ![128, 0] (transpose S256x128 [1, 0] W transposes_S128x256_S256x128_1_0) slices_S256x128_S128x128_128_0 (ix2 k c)
      = W (ix2 c (hi k)) := by
  rw [extractStridedSlice_apply ![128, 0] _ slices_S256x128_S128x128_128_0 (ix2 k c) (ix2 (hi k) c) (fun a => match a with
    | ⟨0, _⟩ => by show 128 + k.val = 128 + k.val; rfl
    | ⟨1, _⟩ => by show c.val = 0 + c.val; omega)]
  exact transpose_apply [1, 0] W transposes_S128x256_S256x128_1_0 (ix2 (hi k) c) (ix2 c (hi k)) (fun b => match b with
    | ⟨0, _⟩ => rfl
    | ⟨1, _⟩ => rfl)

/-- A vector of 128 entries recast as one row reads, at `(0, c)`, the vector at `c`. -/
theorem row_cast_apply (b : (⟨S128, .f32⟩ : BufTy).Contents (Elt F)) (c : Fin 128) :
    shapeCast S1x128 b shapeCasts_S128_S1x128 (ix2 (0 : Fin 1) c) = b (ix1 c) :=
  shapeCast_a_1a_apply b shapeCasts_S128_S1x128 (0 : Fin 1) c

end Cert.KernelIdeal.HostValue

end
-- ==== Proof.KernelBlocks.lean ====
/-
  From blocks to the array.

  The grid has 50 points; point `t` stages rows `1000 t … 1000 t + 999` of the features and of the aggregated messages,
  the six weight blocks and the five vectors whole, and writes back rows `1000 t … 1000 t + 999` of the result. Row `p`
  of every row block at point `t` is row `1000 t + p` of its array (`rowOf`), so what point `t` writes back is block `t` of the
  result array `result` (`flushed_eq`, by `RowValue.point_at`); the 50 blocks cover the 50000 rows (row `i` is in block
  `i / 1000`), so the array ends holding `result` (`final`), and the frame run is re-posted with it (`run`).
-/
import proofs.«165846_j42030549959140_1_alg».proof.Proof.Gen.KernelIdeal.Value
import proofs.«165846_j42030549959140_1_alg».proof.Proof.KernelRow
import proofs.«165846_j42030549959140_1_alg».proof.Proof.KernelHost

noncomputable section

namespace Cert.KernelIdeal.ArrayValue

open Cert.KernelIdeal Cert.KernelIdeal.Gen Idealize.ShloMosaic Idealize.ShloMosaic.TcCoe Idealize.SL.Sem
open Idealize.ShloMosaic.ValueIdx Cert.GruRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array on core `c`: of the features, the aggregated messages as the kernel is launched on them, the three
    weight matrices, the three biases and the normalisation's scale and shift. -/
def result (c : Dev nD) : S50000x128.Idx → EReal :=
  gruArray (m ((c : Thread nD τ).loc main_arg0)) (V m c main_v24) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The printed index maps, decided over the 50 points: the three row windows are at block row `t`, column block 0; every
    other window is at block (0, 0). -/
theorem idx_facts : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) ∧ (∀ a : Fin 2, win0_10.index t a = 0)
    ∧ (∀ a : Fin 2, win0_11.index t a = 0) ∧ (∀ a : Fin 2, win0_12.index t a = 0) :=
  (by decide +kernel : ∀ t : Fin grid0.N, _)

/-- Row `p` of a row block at point `t` is row `1000 t + p` of its array. -/
def rowOf (t : Fin cfg0.N) (p : Fin 1000) : Fin 50000 :=
  ⟨t.val * 1000 + p.val, by have h := t.isLt; have hN : cfg0.N = 50 := N_0; omega⟩

/-- The features' block at point `t`. -/
theorem read0 (c : Dev nD) (t : Fin cfg0.N) (p : Fin 1000) (k : Fin 128) :
    iblk m c 0 t (ix2 p k) = (m ((c : Thread nD τ).loc main_arg0)) (ix2 (rowOf t p) k) := by
  obtain ⟨e13a, e13b, e0a, e0b, e1a, e1b, e2, e3, e4, e5, e6, e7, e8, e9, e10, e11, e12⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1000 + 1 * p.val = t.val * 1000 + p.val; omega
  | ⟨1, _⟩ => show win0_0.index t (1 : Fin 2) * 128 + 1 * k.val = k.val; omega

/-- The aggregated messages' block at point `t`. -/
theorem read1 (c : Dev nD) (t : Fin cfg0.N) (p : Fin 1000) (k : Fin 128) :
    iblk m c 1 t (ix2 p k) = V m c main_v24 (ix2 (rowOf t p) k) := by
  obtain ⟨e13a, e13b, e0a, e0b, e1a, e1b, e2, e3, e4, e5, e6, e7, e8, e9, e10, e11, e12⟩ := idx_facts t
  show V m c main_v24 (((cfg0.win 1).blk t).view.emb (ix2 p k)) = _
  refine congrArg _ (funext fun a => Fin.ext ?_)
  match a with
  | ⟨0, _⟩ => show win0_1.index t (0 : Fin 2) * 1000 + 1 * p.val = t.val * 1000 + p.val; omega
  | ⟨1, _⟩ => show win0_1.index t (1 : Fin 2) * 128 + 1 * k.val = k.val; omega

/-- Window 2's block is the whole weight block it stages: `(k, c') ↦ W (c', k)`. -/
theorem read2 (c : Dev nD) (t : Fin cfg0.N) (k c' : Fin 128) :
    iblk m c 2 t (ix2 k c') = (m ((c : Thread nD τ).loc main_arg3)) (ix2 c' (lo k)) := by
  obtain ⟨e13a, e13b, e0a, e0b, e1a, e1b, e2, e3, e4, e5, e6, e7, e8, e9, e10, e11, e12⟩ := idx_facts t
  show V m c main_v28 (((cfg0.win 2).blk t).view.emb (ix2 k c')) = _
  refine (congrArg (V m c main_v28) (show ((cfg0.win 2).blk t).view.emb (ix2 k c') = ix2 k c' from funext fun a => Fin.ext (by
    match a with
    | ⟨0, _⟩ => show win0_2.index t (0 : Fin 2) * 128 + 1 * k.val = k.val; have := e2 0; omega
    | ⟨1, _⟩ => show win0_2.index t (1 : Fin 2) * 128 + 1 * c'.val = c'.val; have := e2 1; omega))).trans ?_
  rw [HostValue.V_v28]
  exact HostValue.slice_lo_apply _ k c'

/-- Window 3's block is the whole weight block it stages: `(k, c') ↦ W (c', 128 + k)`. -/
theorem read3 (c : Dev nD) (t : Fin cfg0.N) (k c' : Fin 128) :
    iblk m c 3 t (ix2 k c') = (m ((c : Thread nD τ).loc main_arg3)) (ix2 c' (hi k)) := by
  obtain ⟨e13a, e13b, e0a, e0b, e1a, e1b, e2, e3, e4, e5, e6, e7, e8, e9, e10, e11, e12⟩ := idx_facts t
  show V m c main_v29 (((cfg0.win 3).blk t).view.emb (ix2 k c')) = _
  refine (congrArg (V m c main_v29) (show ((cfg0.win 3).blk t).view.emb (ix2 k c') = ix2 k c' from funext fun a => Fin.ext (by
    match a with
    | ⟨0, _⟩ => show win0_3.index t (0 : Fin 2) * 128 + 1 * k.val = k.val; have := e3 0; omega
    | ⟨1, _⟩ => show win0_3.index t (1 : Fin 2) * 128 + 1 * c'.val = c'.val; have := e3 1; omega))).trans ?_
  rw [HostValue.V_v29]
  exact HostValue.slice_hi_apply _ k c'

/-- Window 4's block is the whole weight block it stages: `(k, c') ↦ W (c', k)`. -/
theorem read4 (c : Dev nD) (t : Fin cfg0.N) (k c' : Fin 128) :
    iblk m c 4 t (ix2 k c') = (m ((c : Thread nD τ).loc main_arg5)) (ix2 c' (lo k)) := by
  obtain ⟨e13a, e13b, e0a, e0b, e1a, e1b, e2, e3, e4, e5, e6, e7, e8, e9, e10, e11, e12⟩ := idx_facts t
  show V m c main_v30 (((cfg0.win 4).blk t).view.emb (ix2 k c')) = _
  refine (congrArg (V m c main_v30) (show ((cfg0.win 4).blk t).view.emb (ix2 k c') = ix2 k c' from funext fun a => Fin.ext (by
    match a with
    | ⟨0, _⟩ => show win0_4.index t (0 : Fin 2) * 128 + 1 * k.val = k.val; have := e4 0; omega
    | ⟨1, _⟩ => show win0_4.index t (1 : Fin 2) * 128 + 1 * c'.val = c'.val; have := e4 1; omega))).trans ?_
  rw [HostValue.V_v30]
  exact HostValue.slice_lo_apply _ k c'

/-- Window 5's block is the whole weight block it stages: `(k, c') ↦ W (c', 128 + k)`. -/
theorem read5 (c : Dev nD) (t : Fin cfg0.N) (k c' : Fin 128) :
    iblk m c 5 t (ix2 k c') = (m ((c : Thread nD τ).loc main_arg5)) (ix2 c' (hi k)) := by
  obtain ⟨e13a, e13b, e0a, e0b, e1a, e1b, e2, e3, e4, e5, e6, e7, e8, e9, e10, e11, e12⟩ := idx_facts t
  show V m c main_v31 (((cfg0.win 5).blk t).view.emb (ix2 k c')) = _
  refine (congrArg (V m c main_v31) (show ((cfg0.win 5).blk t).view.emb (ix2 k c') = ix2 k c' from funext fun a => Fin.ext (by
    match a with
    | ⟨0, _⟩ => show win0_5.index t (0 : Fin 2) * 128 + 1 * k.val = k.val; have := e5 0; omega
    | ⟨1, _⟩ => show win0_5.index t (1 : Fin 2) * 128 + 1 * c'.val = c'.val; have := e5 1; omega))).trans ?_
  rw [HostValue.V_v31]
  exact HostValue.slice_hi_apply _ k c'

/-- Window 6's block is the whole weight block it stages: `(k, c') ↦ W (c', k)`. -/
theorem read6 (c : Dev nD) (t : Fin cfg0.N) (k c' : Fin 128) :
    iblk m c 6 t (ix2 k c') = (m ((c : Thread nD τ).loc main_arg7)) (ix2 c' (lo k)) := by
  obtain ⟨e13a, e13b, e0a, e0b, e1a, e1b, e2, e3, e4, e5, e6, e7, e8, e9, e10, e11, e12⟩ := idx_facts t
  show V m c main_v32 (((cfg0.win 6).blk t).view.emb (ix2 k c')) = _
  refine (congrArg (V m c main_v32) (show ((cfg0.win 6).blk t).view.emb (ix2 k c') = ix2 k c' from funext fun a => Fin.ext (by
    match a with
    | ⟨0, _⟩ => show win0_6.index t (0 : Fin 2) * 128 + 1 * k.val = k.val; have := e6 0; omega
    | ⟨1, _⟩ => show win0_6.index t (1 : Fin 2) * 128 + 1 * c'.val = c'.val; have := e6 1; omega))).trans ?_
  rw [HostValue.V_v32]
  exact HostValue.slice_lo_apply _ k c'

/-- Window 7's block is the whole weight block it stages: `(k, c') ↦ W (c', 128 + k)`. -/
theorem read7 (c : Dev nD) (t : Fin cfg0.N) (k c' : Fin 128) :
    iblk m c 7 t (ix2 k c') = (m ((c : Thread nD τ).loc main_arg7)) (ix2 c' (hi k)) := by
  obtain ⟨e13a, e13b, e0a, e0b, e1a, e1b, e2, e3, e4, e5, e6, e7, e8, e9, e10, e11, e12⟩ := idx_facts t
  show V m c main_v33 (((cfg0.win 7).blk t).view.emb (ix2 k c')) = _
  refine (congrArg (V m c main_v33) (show ((cfg0.win 7).blk t).view.emb (ix2 k c') = ix2 k c' from funext fun a => Fin.ext (by
    match a with
    | ⟨0, _⟩ => show win0_7.index t (0 : Fin 2) * 128 + 1 * k.val = k.val; have := e7 0; omega
    | ⟨1, _⟩ => show win0_7.index t (1 : Fin 2) * 128 + 1 * c'.val = c'.val; have := e7 1; omega))).trans ?_
  rw [HostValue.V_v33]
  exact HostValue.slice_hi_apply _ k c'

/-- Window 8's block is the one row it stages: `c' ↦ b c'`. -/
theorem read8 (c : Dev nD) (t : Fin cfg0.N) (c' : Fin 128) :
    iblk m c 8 t (ix2 (0 : Fin 1) c') = (m ((c : Thread nD τ).loc main_arg4)) (ix1 c') := by
  obtain ⟨e13a, e13b, e0a, e0b, e1a, e1b, e2, e3, e4, e5, e6, e7, e8, e9, e10, e11, e12⟩ := idx_facts t
  show V m c main_v34 (((cfg0.win 8).blk t).view.emb (ix2 (0 : Fin 1) c')) = _
  refine (congrArg (V m c main_v34) (show ((cfg0.win 8).blk t).view.emb (ix2 (0 : Fin 1) c') = ix2 (0 : Fin 1) c' from funext fun a => Fin.ext (by
    match a with
    | ⟨0, _⟩ => show win0_8.index t (0 : Fin 2) * 1 + 1 * 0 = 0; have := e8 0; omega
    | ⟨1, _⟩ => show win0_8.index t (1 : Fin 2) * 128 + 1 * c'.val = c'.val; have := e8 1; omega))).trans ?_
  rw [HostValue.V_v34]
  exact HostValue.row_cast_apply _ c'

/-- Window 9's block is the one row it stages: `c' ↦ b c'`. -/
theorem read9 (c : Dev nD) (t : Fin cfg0.N) (c' : Fin 128) :
    iblk m c 9 t (ix2 (0 : Fin 1) c') = (m ((c : Thread nD τ).loc main_arg6)) (ix1 c') := by
  obtain ⟨e13a, e13b, e0a, e0b, e1a, e1b, e2, e3, e4, e5, e6, e7, e8, e9, e10, e11, e12⟩ := idx_facts t
  show V m c main_v35 (((cfg0.win 9).blk t).view.emb (ix2 (0 : Fin 1) c')) = _
  refine (congrArg (V m c main_v35) (show ((cfg0.win 9).blk t).view.emb (ix2 (0 : Fin 1) c') = ix2 (0 : Fin 1) c' from funext fun a => Fin.ext (by
    match a with
    | ⟨0, _⟩ => show win0_9.index t (0 : Fin 2) * 1 + 1 * 0 = 0; have := e9 0; omega
    | ⟨1, _⟩ => show win0_9.index t (1 : Fin 2) * 128 + 1 * c'.val = c'.val; have := e9 1; omega))).trans ?_
  rw [HostValue.V_v35]
  exact HostValue.row_cast_apply _ c'

/-- Window 10's block is the one row it stages: `c' ↦ b c'`. -/
theorem read10 (c : Dev nD) (t : Fin cfg0.N) (c' : Fin 128) :
    iblk m c 10 t (ix2 (0 : Fin 1) c') = (m ((c : Thread nD τ).loc main_arg8)) (ix1 c') := by
  obtain ⟨e13a, e13b, e0a, e0b, e1a, e1b, e2, e3, e4, e5, e6, e7, e8, e9, e10, e11, e12⟩ := idx_facts t
  show V m c main_v36 (((cfg0.win 10).blk t).view.emb (ix2 (0 : Fin 1) c')) = _
  refine (congrArg (V m c main_v36) (show ((cfg0.win 10).blk t).view.emb (ix2 (0 : Fin 1) c') = ix2 (0 : Fin 1) c' from funext fun a => Fin.ext (by
    match a with
    | ⟨0, _⟩ => show win0_10.index t (0 : Fin 2) * 1 + 1 * 0 = 0; have := e10 0; omega
    | ⟨1, _⟩ => show win0_10.index t (1 : Fin 2) * 128 + 1 * c'.val = c'.val; have := e10 1; omega))).trans ?_
  rw [HostValue.V_v36]
  exact HostValue.row_cast_apply _ c'

/-- Window 11's block is the one row it stages: `c' ↦ b c'`. -/
theorem read11 (c : Dev nD) (t : Fin cfg0.N) (c' : Fin 128) :
    iblk m c 11 t (ix2 (0 : Fin 1) c') = (m ((c : Thread nD τ).loc main_arg9)) (ix1 c') := by
  obtain ⟨e13a, e13b, e0a, e0b, e1a, e1b, e2, e3, e4, e5, e6, e7, e8, e9, e10, e11, e12⟩ := idx_facts t
  show V m c main_v37 (((cfg0.win 11).blk t).view.emb (ix2 (0 : Fin 1) c')) = _
  refine (congrArg (V m c main_v37) (show ((cfg0.win 11).blk t).view.emb (ix2 (0 : Fin 1) c') = ix2 (0 : Fin 1) c' from funext fun a => Fin.ext (by
    match a with
    | ⟨0, _⟩ => show win0_11.index t (0 : Fin 2) * 1 + 1 * 0 = 0; have := e11 0; omega
    | ⟨1, _⟩ => show win0_11.index t (1 : Fin 2) * 128 + 1 * c'.val = c'.val; have := e11 1; omega))).trans ?_
  rw [HostValue.V_v37]
  exact HostValue.row_cast_apply _ c'

/-- Window 12's block is the one row it stages: `c' ↦ b c'`. -/
theorem read12 (c : Dev nD) (t : Fin cfg0.N) (c' : Fin 128) :
    iblk m c 12 t (ix2 (0 : Fin 1) c') = (m ((c : Thread nD τ).loc main_arg10)) (ix1 c') := by
  obtain ⟨e13a, e13b, e0a, e0b, e1a, e1b, e2, e3, e4, e5, e6, e7, e8, e9, e10, e11, e12⟩ := idx_facts t
  show V m c main_v38 (((cfg0.win 12).blk t).view.emb (ix2 (0 : Fin 1) c')) = _
  refine (congrArg (V m c main_v38) (show ((cfg0.win 12).blk t).view.emb (ix2 (0 : Fin 1) c') = ix2 (0 : Fin 1) c' from funext fun a => Fin.ext (by
    match a with
    | ⟨0, _⟩ => show win0_12.index t (0 : Fin 2) * 1 + 1 * 0 = 0; have := e12 0; omega
    | ⟨1, _⟩ => show win0_12.index t (1 : Fin 2) * 128 + 1 * c'.val = c'.val; have := e12 1; omega))).trans ?_
  rw [HostValue.V_v38]
  exact HostValue.row_cast_apply _ c'

/-- The result block's index `y` at point `t` is the array's `(1000 t + y 0, y 1)`. -/
theorem emb13 (t : Fin cfg0.N) (y : S1000x128.Idx) : ((cfg0.win 13).blk t).view.emb y = ix2 (rowOf t (y 0)) (y 1) := by
  obtain ⟨e13a, e13b, e0a, e0b, e1a, e1b, e2, e3, e4, e5, e6, e7, e8, e9, e10, e11, e12⟩ := idx_facts t
  funext a; apply Fin.ext
  match a with
  | ⟨0, _⟩ => show win0_13.index t (0 : Fin 2) * 1000 + 1 * (y 0).val = t.val * 1000 + (y 0).val; omega
  | ⟨1, _⟩ => show win0_13.index t (1 : Fin 2) * 128 + 1 * (y 1).val = (y 1).val; omega

/-- WHAT POINT `t` WRITES BACK is block `t` of the result array. -/
theorem flushed_eq (c : Dev nD) (t : Fin cfg0.N) :
    (dats m 0 c).flushed 13 t = ((cfg0.win 13).blk t).view.read (Elt Ideal) (result m c) := by
  rw [Value.flushed13]
  unfold out0_13
  rw [View.canon_unit_zero hz]
  simp only [View.ld_unit_zero (S := S1000x128) hz, View.ld_unit_zero (S := S128x128) hz, View.ld_unit_zero (S := S1x128) hz]
  funext y
  show k0_pay8 (iblk m c 0 t) (k0_pay2 (iblk m c 1 t)) (k0_pay3 (iblk m c 6 t)) (k0_pay4 (iblk m c 7 t))
      (k0_pay5 (iblk m c 0 t) (iblk m c 1 t) (iblk m c 2 t) (iblk m c 3 t) (iblk m c 8 t))
      (k0_pay6 (iblk m c 0 t) (iblk m c 1 t) (iblk m c 4 t) (iblk m c 5 t)) (k0_pay7 (iblk m c 9 t))
      (iblk m c 10 t) (iblk m c 11 t) (iblk m c 12 t) y
    = result m c (((cfg0.win 13).blk t).view.emb y)
  refine Eq.trans ?_ (congrArg (result m c) (emb13 t y).symm)
  exact RowValue.point_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    _ _ _ _ _ _ _ _ _ _ y (rowOf t (y 0))
    (read0 m c t (y 0)) (read1 m c t (y 0)) (read2 m c t) (read3 m c t) (read4 m c t) (read5 m c t) (read6 m c t) (read7 m c t)
    (read8 m c t) (read9 m c t) (read10 m c t) (read11 m c t) (read12 m c t)

/-- An index of the array is in point `t`'s block iff each coordinate is in the block's range on its axis. -/
theorem mem_blk (t : Fin cfg0.N) (i : S50000x128.Idx) :
    i ∈ ((cfg0.win 13).blk t).view.set ↔ ∀ a : Fin 2, win0_13.index t a * S1000x128.size a ≤ (i a).val ∧ (i a).val < win0_13.index t a * S1000x128.size a + S1000x128.size a := by
  show i ∈ ((View.whole main_v39).slice (win0_13.rect t)).set ↔ _
  rw [View.set_slice_whole, Rect.mem_set_unit]
  exact Iff.rfl

/-- THE ARRAY after the run is the result array: row `i` is in the block of point `i / 1000`. -/
theorem final (c : Dev nD) : (dats m 0 c).arrAt 13 cfg0.N = result m c :=
  (dats m 0 c).arrAt_eq_of_cover 13 (result m c) (fun t _ => flushed_eq m c t) fun i => by
    have hi0 : (i 0).val < 50000 := (i 0).isLt
    have hi1 : (i 1).val < 128 := (i 1).isLt
    have hN : cfg0.N = 50 := N_0
    obtain ⟨t, ht⟩ : ∃ t : Fin cfg0.N, t.val = (i 0).val / 1000 := ⟨⟨(i 0).val / 1000, by omega⟩, rfl⟩
    obtain ⟨e13a, e13b, e0a, e0b, e1a, e1b, e2, e3, e4, e5, e6, e7, e8, e9, e10, e11, e12⟩ := idx_facts t
    refine ⟨t, flush0_13 t, ?_⟩
    rw [mem_blk]
    intro a
    match a with
    | ⟨0, _⟩ => show win0_13.index t (0 : Fin 2) * 1000 ≤ (i 0).val ∧ (i 0).val < win0_13.index t (0 : Fin 2) * 1000 + 1000; omega
    | ⟨1, _⟩ => show win0_13.index t (1 : Fin 2) * 128 ≤ (i 1).val ∧ (i 1).val < win0_13.index t (1 : Fin 2) * 128 + 128; omega

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v39) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.RefRow.lean ====
/-
  The reference, one row at a time.

  The reference multiplies the 256-long concatenation `[x, m]` of a node's features and aggregated messages by a
  transposed 128 × 256 weight matrix. The sum over the 256 indices of the concatenation splits into the sum over
  the features against the matrix's first 128 columns and the sum over the messages against its last 128
  (`catdot`, by `GruRow.sum_256_split`): the two-block form of `GruRow.gate`. Its logistic function is spelt
  `1 / (1 + exp (−x))`, which is the logistic function of the extended reals by definition once the float word of
  `1.0` is read as `1`. From there the reference's stages are `GruRow.blend` and `GruRow.lnorm` of row `r`, read
  stage by stage off the generated index-by-index lemmas; a sum from the zero word is the sum.
  The aggregated messages stay the one function `val_main_v24` of the features, the edge list and the edge weights.
-/
import proofs.«165846_j42030549959140_1_alg».proof.Proof.Gen.ReferenceIdeal.Read
import proofs.«165846_j42030549959140_1_alg».proof.Proof.GruArray
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.GruRow

/-- The float word of `1.0` denotes `1`. -/
theorem ofBits_one : Ideal.ofBits .f32 0x3F800000#32 = 1 := by
  simp [Ideal.ofBits, Ideal.ieee, -EReal.coe_mul]; norm_num

/-- The float word of `+0.0` denotes `0`. -/
theorem ofBits_zero : Ideal.ofBits .f32 0x00000000#32 = 0 := Ideal.ofBits_zero_f32

/-- `1 / (1 + exp (−x))`, with `1` spelt by its float word, is the logistic function. -/
theorem logistic_expand (x : EReal) :
    Ideal.div (Ideal.ofBits .f32 0x3F800000#32) (Ideal.ofBits .f32 0x3F800000#32 + Ideal.exp (-x)) = Ideal.logistic x := by
  rw [ofBits_one]; rfl

/-- The concatenation `[a, b]` along the second axis, at a column of the first half, is `a` there. -/
theorem cat_left (a b : (⟨S50000x128, .f32⟩ : BufTy).Contents (Elt Ideal)) (r : Fin 50000) (k : Fin 128) :
    concatenate S50000x256 1 [⟨S50000x128, a⟩, ⟨S50000x128, b⟩] concatenates_S50000x128_S50000x128_S50000x256_d1 (ix2 r (lo k))
      = a (ix2 r k) :=
  concatenate_pair_apply_left 1 a b _ (ix2 r (lo k)) rfl (ix2 r k) (fun bb => match bb with
    | ⟨0, _⟩ => rfl
    | ⟨1, _⟩ => rfl)

/-- At a column of the second half it is `b` at that column less 128. -/
theorem cat_right (a b : (⟨S50000x128, .f32⟩ : BufTy).Contents (Elt Ideal)) (r : Fin 50000) (k : Fin 128) :
    concatenate S50000x256 1 [⟨S50000x128, a⟩, ⟨S50000x128, b⟩] concatenates_S50000x128_S50000x128_S50000x256_d1 (ix2 r (hi k))
      = b (ix2 r k) :=
  concatenate_pair_apply_right 1 a b _ (ix2 r (hi k)) rfl rfl (ix2 r k) (fun bb hb => match bb with
    | ⟨0, _⟩ => rfl
    | ⟨1, _⟩ => (hb (Fin.ext rfl)).elim)
    (by show k.val + 128 = 128 + k.val; omega)

/-- A row of the concatenation `[a, b]` against a 256 × 128 matrix: the row of `a` against the matrix's first 128 rows plus
    the row of `b` against its last 128. -/
theorem catdot (a b : (⟨S50000x128, .f32⟩ : BufTy).Contents (Elt Ideal)) (wt : (⟨S256x128, .f32⟩ : BufTy).Contents (Elt Ideal)) (r : Fin 50000) (c : Fin 128) :
    ∑ k : Fin 256, concatenate S50000x256 1 [⟨S50000x128, a⟩, ⟨S50000x128, b⟩] concatenates_S50000x128_S50000x128_S50000x256_d1 (ix2 r k)
        * wt (ix2 k c)
      = (∑ k : Fin 128, a (ix2 r k) * wt (ix2 (lo k) c)) + ∑ k : Fin 128, b (ix2 r k) * wt (ix2 (hi k) c) := by
  rw [sum_256_split]
  exact congrArg₂ (· + ·)
    (Finset.sum_congr rfl fun k _ => congrArg (· * wt (ix2 (lo k) c)) (cat_left a b r k))
    (Finset.sum_congr rfl fun k _ => congrArg (· * wt (ix2 (hi k) c)) (cat_right a b r k))

/-- The update gate's affine map at `(r, c)`. -/
theorem zl_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (r : Fin 50000) (c : Fin 128) :
    val_main_v30 (F := Ideal) x0 x1 x2 x3 x4 (ix2 r c) = gate (fun k => x0 (ix2 r k)) (fun k => val_main_v24 (F := Ideal) x0 x1 x2 (ix2 r k)) (fun k c => x3 (ix2 c (lo k))) (fun k c => x3 (ix2 c (hi k))) (fun c => x4 (ix1 c)) c := by
  rw [val_main_v30_apply, val_main_v27_apply, val_main_v29_apply, val_main_v28_apply]
  have el : ∀ k : Fin 256, lidx_main_v27 (ix2 r c) k = ix2 r k := fun k => funext fun a => Fin.ext (by match a with | ⟨0, _⟩ => rfl | ⟨1, _⟩ => rfl)
  have er : ∀ k : Fin 256, ridx_main_v27 (ix2 r c) k = ix2 k c := fun k => funext fun a => Fin.ext (by match a with | ⟨0, _⟩ => rfl | ⟨1, _⟩ => rfl)
  have eb : idx_main_v28 (idx_main_v29 (ix2 r c)) = ix1 c := funext fun a => Fin.ext (by match a with | ⟨0, _⟩ => rfl)
  have et : ∀ k : Fin 256, idx_main_v26 (ix2 k c) = ix2 c k := fun k => funext fun a => Fin.ext (by match a with | ⟨0, _⟩ => rfl | ⟨1, _⟩ => rfl)
  simp only [el, er, eb]
  unfold val_main_v25
  rw [catdot]
  simp only [val_main_v26_apply, et]
  rfl

/-- The update gate at `(r, c)`. -/
theorem z_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (r : Fin 50000) (c : Fin 128) :
    val_main_v36 (F := Ideal) x0 x1 x2 x3 x4 (ix2 r c) = Ideal.logistic (gate (fun k => x0 (ix2 r k)) (fun k => val_main_v24 (F := Ideal) x0 x1 x2 (ix2 r k)) (fun k c => x3 (ix2 c (lo k))) (fun k c => x3 (ix2 c (hi k))) (fun c => x4 (ix1 c)) c) := by
  rw [val_main_v36_apply, val_main_v35_apply, val_main_cst_5_apply, val_main_v34_apply, val_main_v33_apply, val_main_cst_4_apply, val_main_v32_apply, val_main_v31_apply, zl_apply]
  exact logistic_expand _

/-- The reset gate's affine map at `(r, c)`. -/
theorem rl_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x5 : (⟨S128x256, .f32⟩ : BufTy).Contents (Elt Ideal)) (x6 : (⟨S128, .f32⟩ : BufTy).Contents (Elt Ideal)) (r : Fin 50000) (c : Fin 128) :
    val_main_v41 (F := Ideal) x0 x1 x2 x5 x6 (ix2 r c) = gate (fun k => x0 (ix2 r k)) (fun k => val_main_v24 (F := Ideal) x0 x1 x2 (ix2 r k)) (fun k c => x5 (ix2 c (lo k))) (fun k c => x5 (ix2 c (hi k))) (fun c => x6 (ix1 c)) c := by
  rw [val_main_v41_apply, val_main_v38_apply, val_main_v40_apply, val_main_v39_apply]
  have el : ∀ k : Fin 256, lidx_main_v38 (ix2 r c) k = ix2 r k := fun k => funext fun a => Fin.ext (by match a with | ⟨0, _⟩ => rfl | ⟨1, _⟩ => rfl)
  have er : ∀ k : Fin 256, ridx_main_v38 (ix2 r c) k = ix2 k c := fun k => funext fun a => Fin.ext (by match a with | ⟨0, _⟩ => rfl | ⟨1, _⟩ => rfl)
  have eb : idx_main_v39 (idx_main_v40 (ix2 r c)) = ix1 c := funext fun a => Fin.ext (by match a with | ⟨0, _⟩ => rfl)
  have et : ∀ k : Fin 256, idx_main_v37 (ix2 k c) = ix2 c k := fun k => funext fun a => Fin.ext (by match a with | ⟨0, _⟩ => rfl | ⟨1, _⟩ => rfl)
  simp only [el, er, eb]
  unfold val_main_v25
  rw [catdot]
  simp only [val_main_v37_apply, et]
  rfl

/-- The reset gate at `(r, c)`. -/
theorem r_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x5 : (⟨S128x256, .f32⟩ : BufTy).Contents (Elt Ideal)) (x6 : (⟨S128, .f32⟩ : BufTy).Contents (Elt Ideal)) (r : Fin 50000) (c : Fin 128) :
    val_main_v47 (F := Ideal) x0 x1 x2 x5 x6 (ix2 r c) = Ideal.logistic (gate (fun k => x0 (ix2 r k)) (fun k => val_main_v24 (F := Ideal) x0 x1 x2 (ix2 r k)) (fun k c => x5 (ix2 c (lo k))) (fun k c => x5 (ix2 c (hi k))) (fun c => x6 (ix1 c)) c) := by
  rw [val_main_v47_apply, val_main_v46_apply, val_main_cst_7_apply, val_main_v45_apply, val_main_v44_apply, val_main_cst_6_apply, val_main_v43_apply, val_main_v42_apply, rl_apply]
  exact logistic_expand _

/-- The candidate's affine map at `(r, c)`: of `[r · x, m]`. -/
theorem hl_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (r : Fin 50000) (c : Fin 128) :
    val_main_v54 (F := Ideal) x0 x1 x2 x5 x6 x7 x8 (ix2 r c) = gate (fun k => Ideal.logistic (gate (fun k => x0 (ix2 r k)) (fun k => val_main_v24 (F := Ideal) x0 x1 x2 (ix2 r k)) (fun k c => x5 (ix2 c (lo k))) (fun k c => x5 (ix2 c (hi k))) (fun c => x6 (ix1 c)) k) * x0 (ix2 r k)) (fun k => val_main_v24 (F := Ideal) x0 x1 x2 (ix2 r k)) (fun k c => x7 (ix2 c (lo k))) (fun k c => x7 (ix2 c (hi k))) (fun c => x8 (ix1 c)) c := by
  rw [val_main_v54_apply, val_main_v51_apply, val_main_v53_apply, val_main_v52_apply]
  have el : ∀ k : Fin 256, lidx_main_v51 (ix2 r c) k = ix2 r k := fun k => funext fun a => Fin.ext (by match a with | ⟨0, _⟩ => rfl | ⟨1, _⟩ => rfl)
  have er : ∀ k : Fin 256, ridx_main_v51 (ix2 r c) k = ix2 k c := fun k => funext fun a => Fin.ext (by match a with | ⟨0, _⟩ => rfl | ⟨1, _⟩ => rfl)
  have eb : idx_main_v52 (idx_main_v53 (ix2 r c)) = ix1 c := funext fun a => Fin.ext (by match a with | ⟨0, _⟩ => rfl)
  have et : ∀ k : Fin 256, idx_main_v50 (ix2 k c) = ix2 c k := fun k => funext fun a => Fin.ext (by match a with | ⟨0, _⟩ => rfl | ⟨1, _⟩ => rfl)
  simp only [el, er, eb]
  unfold val_main_v49
  rw [catdot]
  simp only [val_main_v50_apply, et, val_main_v48_apply, r_apply]
  rfl

/-- The new features at `(r, c)`: `(1 − z) · x + z · tanh` of the candidate's affine map. -/
theorem xnew_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (r : Fin 50000) (c : Fin 128) :
    val_main_v60 (F := Ideal) x0 x1 x2 x3 x4 x5 x6 x7 x8 (ix2 r c) = (blend (gate (fun k => x0 (ix2 r k)) (fun k => val_main_v24 (F := Ideal) x0 x1 x2 (ix2 r k)) (fun k c => x3 (ix2 c (lo k))) (fun k c => x3 (ix2 c (hi k))) (fun c => x4 (ix1 c))) (gate (fun k => Ideal.logistic (gate (fun k => x0 (ix2 r k)) (fun k => val_main_v24 (F := Ideal) x0 x1 x2 (ix2 r k)) (fun k c => x5 (ix2 c (lo k))) (fun k c => x5 (ix2 c (hi k))) (fun c => x6 (ix1 c)) k) * x0 (ix2 r k)) (fun k => val_main_v24 (F := Ideal) x0 x1 x2 (ix2 r k)) (fun k c => x7 (ix2 c (lo k))) (fun k c => x7 (ix2 c (hi k))) (fun c => x8 (ix1 c))) (fun k => x0 (ix2 r k))) c := by
  rw [val_main_v60_apply, val_main_v58_apply, val_main_v57_apply, val_main_v56_apply, val_main_cst_8_apply, val_main_v59_apply,
    z_apply, val_main_v55_apply, hl_apply]
  rfl

/-- The mean of row `r` of the new features, as the reference's column of means holds it. -/
theorem mean_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (r : Fin 50000) :
    val_main_v64 (F := Ideal) x0 x1 x2 x3 x4 x5 x6 x7 x8 (ix2 r (0 : Fin 1)) = mean (fun k => val_main_v60 (F := Ideal) x0 x1 x2 x3 x4 x5 x6 x7 x8 (ix2 r k)) := by
  rw [val_main_v64_apply, val_main_v62_apply, val_main_v61_apply, val_main_cst_9_apply, val_main_v63_apply, val_main_cst_10_apply]
  have e1 : ∀ k : Fin 128, idx_main_v61 (idx_main_v62 (ix2 r (0 : Fin 1))) k = ix2 r k := fun k => funext fun a => Fin.ext (by match a with | ⟨0, _⟩ => rfl | ⟨1, _⟩ => rfl)
  simp only [e1]
  show Ideal.div (Ideal.ofBits .f32 0x00000000#32 + _) _ = _
  rw [ofBits_zero, zero_add]
  rfl

/-- A centred entry: the new feature less its row's mean (the reference computes it twice, as `%66` and as `%73`). -/
theorem centred66_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (r : Fin 50000) (c : Fin 128) :
    val_main_v66 (F := Ideal) x0 x1 x2 x3 x4 x5 x6 x7 x8 (ix2 r c)
      = val_main_v60 (F := Ideal) x0 x1 x2 x3 x4 x5 x6 x7 x8 (ix2 r c) - mean (fun k => val_main_v60 (F := Ideal) x0 x1 x2 x3 x4 x5 x6 x7 x8 (ix2 r k)) := by
  rw [val_main_v66_apply, val_main_v65_apply]
  have e : idx_main_v65 (ix2 r c) = ix2 r (0 : Fin 1) := funext fun a => Fin.ext (by match a with | ⟨0, _⟩ => rfl | ⟨1, _⟩ => rfl)
  rw [e, mean_apply]
  rfl

theorem centred73_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (r : Fin 50000) (c : Fin 128) :
    val_main_v73 (F := Ideal) x0 x1 x2 x3 x4 x5 x6 x7 x8 (ix2 r c)
      = val_main_v60 (F := Ideal) x0 x1 x2 x3 x4 x5 x6 x7 x8 (ix2 r c) - mean (fun k => val_main_v60 (F := Ideal) x0 x1 x2 x3 x4 x5 x6 x7 x8 (ix2 r k)) := by
  rw [val_main_v73_apply, val_main_v72_apply]
  have e : idx_main_v72 (ix2 r c) = ix2 r (0 : Fin 1) := funext fun a => Fin.ext (by match a with | ⟨0, _⟩ => rfl | ⟨1, _⟩ => rfl)
  rw [e, mean_apply]
  rfl

/-- The variance of row `r`: the mean of the squared centred entries. -/
theorem var_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (r : Fin 50000) :
    val_main_v71 (F := Ideal) x0 x1 x2 x3 x4 x5 x6 x7 x8 (ix2 r (0 : Fin 1))
      = mean (fun k => (val_main_v60 (F := Ideal) x0 x1 x2 x3 x4 x5 x6 x7 x8 (ix2 r k) - mean (fun k' => val_main_v60 (F := Ideal) x0 x1 x2 x3 x4 x5 x6 x7 x8 (ix2 r k')))
          * (val_main_v60 (F := Ideal) x0 x1 x2 x3 x4 x5 x6 x7 x8 (ix2 r k) - mean (fun k' => val_main_v60 (F := Ideal) x0 x1 x2 x3 x4 x5 x6 x7 x8 (ix2 r k')))) := by
  rw [val_main_v71_apply, val_main_v69_apply, val_main_v68_apply, val_main_cst_11_apply, val_main_v70_apply, val_main_cst_12_apply]
  have e1 : ∀ k : Fin 128, idx_main_v68 (idx_main_v69 (ix2 r (0 : Fin 1))) k = ix2 r k := fun k => funext fun a => Fin.ext (by match a with | ⟨0, _⟩ => rfl | ⟨1, _⟩ => rfl)
  simp only [e1, val_main_v67_apply, centred66_apply]
  show Ideal.div (Ideal.ofBits .f32 0x00000000#32 + _) _ = _
  rw [ofBits_zero, zero_add]
  rfl

/-- The reference's result at `(r, c)` is the normalisation of row `r` of the new features. -/
theorem out_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (r : Fin 50000) (c : Fin 128) :
    val_main_v84 (F := Ideal) x0 x1 x2 x3 x4 x5 x6 x7 x8 x9 x10 (ix2 r c)
      = lnorm (fun k => val_main_v60 (F := Ideal) x0 x1 x2 x3 x4 x5 x6 x7 x8 (ix2 r k)) (fun c => x9 (ix1 c)) (fun c => x10 (ix1 c)) c := by
  rw [val_main_v84_apply, val_main_v83_apply, val_main_v82_apply, val_main_v81_apply, val_main_v80_apply, val_main_v79_apply,
    val_main_v78_apply, val_main_v77_apply, val_main_v76_apply, val_main_v75_apply, val_main_v74_apply, val_main_cst_13_apply,
    centred73_apply]
  have e77 : idx_main_v77 (ix2 r c) = ix2 r (0 : Fin 1) := funext fun a => Fin.ext (by match a with | ⟨0, _⟩ => rfl | ⟨1, _⟩ => rfl)
  have e80 : idx_main_v79 (idx_main_v80 (ix2 r c)) = ix1 c := funext fun a => Fin.ext (by match a with | ⟨0, _⟩ => rfl)
  have e83 : idx_main_v82 (idx_main_v83 (ix2 r c)) = ix1 c := funext fun a => Fin.ext (by match a with | ⟨0, _⟩ => rfl)
  rw [e77, e80, e83, var_apply]
  rfl

/-- THE REFERENCE IS THE RESULT ARRAY: of the features, its own aggregation of the messages, the weights, the biases and the
    normalisation's scale and shift. -/
theorem ref_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) :
    val_main_v84 (F := Ideal) x0 x1 x2 x3 x4 x5 x6 x7 x8 x9 x10
      = gruArray x0 (val_main_v24 (F := Ideal) x0 x1 x2) x3 x4 x5 x6 x7 x8 x9 x10 := by
  funext i
  obtain ⟨r, c, rfl⟩ : ∃ (r : Fin 50000) (c : Fin 128), i = ix2 r c := ⟨i 0, i 1, eq_ix2 i⟩
  rw [out_apply, gruArray_ix2]
  simp only [xnew_apply]
  rfl

end Cert.ReferenceIdeal.RefValue

end
-- ==== Proof.lean ====
/-
  A gated update of node features by aggregated messages, followed by a layer normalisation: the tiled kernel
  against the plain reference, at the exact instance where every float is an extended real.

  Both programs first aggregate the messages with the same host operations (a gather of source rows, their
  weighting, a scatter-add by target, a division by the clipped in-degree), so the aggregated array is one and the
  same function of the features, the edge list and the edge weights on both sides, and is never opened.

  The kernel then takes 1000 rows at a time. For each row it forms the update and reset gates and the candidate
  from six 128 × 128 weight blocks — the two halves of each transposed 128 × 256 weight matrix — and blends and
  normalises the row. The reference concatenates features and messages into 256-long rows and multiplies by the
  whole transposed matrices. Index by index the two agree because a sum over the 256 indices of a concatenation is
  the sum over its first 128 plus the sum over its last 128 (commutativity and associativity of addition on the
  extended reals; no entry needs to be finite), because rounding to the matrix unit's input format is the identity
  on extended reals, because the kernel's logistic function is by definition the reference's `1 / (1 + exp (−x))`,
  and because both divide by the same `128.0` and add the same small constant before the reciprocal square root.

  `GruRow.rowOut` is the common row function and `GruRow.gruArray` the common result array; the kernel's result
  array is it (`ArrayValue.run`, from the blockwise run of the frame), the reference's result is it
  (`RefValue.ref_eq`, over the reference's run read index by index), and the kernel was launched on the reference's
  own aggregation (`HostValue.V_v24`).

  The three frame claims are the programs' runs with the value forgotten. The idealized kernel is the printed
  kernel read at the exact instance with no rewrite, so that claim is `True`.
-/
import proofs.«165846_j42030549959140_1_alg».proof.Defs
import proofs.«165846_j42030549959140_1_alg».proof.Proof.Gen.Kernel
import proofs.«165846_j42030549959140_1_alg».proof.Proof.Gen.Kernel.Skeleton
import proofs.«165846_j42030549959140_1_alg».proof.Proof.Gen.Kernel.Launch
import proofs.«165846_j42030549959140_1_alg».proof.Proof.Gen.Kernel.Points
import proofs.«165846_j42030549959140_1_alg».proof.Proof.Gen.Kernel.Frame
import proofs.«165846_j42030549959140_1_alg».proof.Proof.Gen.KernelIdeal
import proofs.«165846_j42030549959140_1_alg».proof.Proof.Gen.KernelIdeal.Skeleton
import proofs.«165846_j42030549959140_1_alg».proof.Proof.Gen.KernelIdeal.Launch
import proofs.«165846_j42030549959140_1_alg».proof.Proof.Gen.KernelIdeal.Points
import proofs.«165846_j42030549959140_1_alg».proof.Proof.Gen.KernelIdeal.Frame
import proofs.«165846_j42030549959140_1_alg».proof.Proof.Gen.ReferenceIdeal
import proofs.«165846_j42030549959140_1_alg».proof.Proof.Gen.Pre_finite_inputs
import proofs.«165846_j42030549959140_1_alg».proof.Proof.Gen.KernelIdeal.Value
import proofs.«165846_j42030549959140_1_alg».proof.Proof.Gen.ReferenceIdeal.Run
import proofs.«165846_j42030549959140_1_alg».proof.Proof.Gen.ReferenceIdeal.Read
import proofs.«165846_j42030549959140_1_alg».proof.Proof.KernelBlocks
import proofs.«165846_j42030549959140_1_alg».proof.Proof.RefRow
import Idealize.ShloMosaic.Adequacy
import Idealize.ShloMosaic.Init

noncomputable section

namespace Cert.Proof

open Idealize.ShloMosaic Idealize.SL.Sem

/-- The printed kernel terminates without a fault and leaves its arguments as they were. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the exact instance. -/
theorem preserves : Cert.preserves_Kernel_KernelIdeal := trivial

/-- From memories that agree on the arguments both programs end holding `GruRow.gruArray` of the features, the
    reference's aggregation of the messages, the weights, the biases and the normalisation's scale and shift. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v84_eq, Cert.ReferenceIdeal.RefValue.ref_eq, a0, a1, a2, a3, a4, a5, a6, a7, a8, a9, a10]
  show _ = Cert.KernelIdeal.ArrayValue.result m c
  unfold Cert.KernelIdeal.ArrayValue.result
  rw [Cert.KernelIdeal.HostValue.V_v24]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
